-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S1024x2048 : Shape := ⟨2, ![1024, 2048]⟩
abbrev S1x1024 : Shape := ⟨2, ![1, 1024]⟩
abbrev S1024x1024 : Shape := ⟨2, ![1024, 1024]⟩

abbrev nBuf : Space → Nat
  | .hbm => 53
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x4096, .bf16⟩
  | .hbm, ⟨19, _⟩ => ⟨S8192x4096, .f32⟩
  | .hbm, ⟨20, _⟩ => ⟨S8192x4096, .f32⟩
  | .hbm, ⟨21, _⟩ => ⟨S8192x4096, .bf16⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .bf16⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S1x4096, .f32⟩
  | .hbm, ⟨52, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_cst_2 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_cst_8 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v21 : BitVec 1 := Scalar.cmpi .eq arg2 c1_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bcast_S_S8192x4096 : S_.BroadcastsInDim S8192x4096 (![] : Fin 0 → Fin S8192x4096.rank)
  bitsLt_bf16_f32 : FTy.bits .bf16 < FTy.bits .f32
  bcast_S_S4096x4096 : S_.BroadcastsInDim S4096x4096 (![] : Fin 0 → Fin S4096x4096.rank)
  bcast_S_S4096 : S_.BroadcastsInDim S4096 (![] : Fin 0 → Fin S4096.rank)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .bf16 = 32 ∨ (Rect.block (s := S8192x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x4096.size a
  hwx0_1 : ∀ i : grid0.Coords, EltTy.bits .bf16 = 32 ∨ (Rect.block (s := S8192x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S4096x4096.size a
  hwx0_2 : ∀ i : grid0.Coords, EltTy.bits .bf16 = 32 ∨ (Rect.block (s := S4096x4096) S1024x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v6) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 51
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S4096x4096, .f32⟩
  | .hbm, ⟨47, _⟩ => ⟨S8192x4096, .f32⟩
  | .hbm, ⟨48, _⟩ => ⟨S1x4096, .f32⟩
  | .hbm, ⟨49, _⟩ => ⟨S8192x4096, .f32⟩
  | .hbm, ⟨50, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_cst_2 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_cst_8 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S_S4096x4096 : S_.BroadcastsInDim S4096x4096 (![] : Fin 0 → Fin S4096x4096.rank)
  bcast_S_S4096 : S_.BroadcastsInDim S4096 (![] : Fin 0 → Fin S4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibWholeStore.lean ====
/-
  A buffer stored whole several times, then read whole.

  A body that keeps an accumulator in a buffer stores the whole buffer, reads it back, stores it again, and so on.
  What a load through the whole-buffer rectangle reads, after any list of stores whose LAST one went through that same
  rectangle, is that last store's value: the earlier stores are all overwritten.  (The one-store case is the library's.)
-/
import Idealize.ShloMosaic.Lib.Pipeline.Value
import Idealize.ShloMosaic.Lib.Pipeline.FrameBody

noncomputable section

namespace Cert.LibWholeStore

open Idealize.ShloMosaic

/-- The offset of a whole-buffer rectangle of rank two, spelt as a literal pair, is the zero offset. -/
theorem zero_pair : (![0, 0] : Fin 2 → Nat) = fun _ => 0 := funext fun a => by fin_cases a <;> rfl

/-- A load through the whole-buffer rectangle, after a list of stores whose LAST one went through the same rectangle,
    reads that last store's value, whatever the earlier stores were. -/
theorem readCov_cons_whole {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons.mpr (Or.inl rfl), by
    show y ∈ (Rect.whole S).set; rw [Rect.set_whole]; exact Finset.mem_univ y⟩), View.canon_cons_unit_zero rfl,
    View.ld_unit_zero rfl]

end Cert.LibWholeStore

end
-- ==== Proof.Pieces.lean ====
/-
  What one grid point leaves, as a pure term of what it was handed.

  The body reads and writes every staging buffer whole.  At a point with k = 0 it stores the zero tile into the
  accumulator, adds the high part's product, then the low part's product, reading the accumulator back before each
  addition: the accumulator ends at  (0 + hi * w) + lo * w  of the point's blocks.  At a point with k = 1 it starts
  from what the point before left in the accumulator, adds the same two products, and stores the accumulator plus the
  bias row, repeated down the rows, into the output block.
-/
import proofs.«121416_j32487132627344_2_alg».proof.Proof.Gen.KernelIdeal.Frame
import proofs.«121416_j32487132627344_2_alg».proof.Proof.LibWholeStore
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

/-- The offset of a whole-buffer rectangle of rank two. -/
theorem hz : (![0, 0] : Fin 2 → Nat) = fun _ => 0 := Cert.LibWholeStore.zero_pair

/-- A point with k = 0 leaves (0 + hi * w) + lo * w in the accumulator. -/
theorem scratch_first (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x2048 .bf16) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : cond0_0 i) (hc1 : ¬cond0_1 i)
    (x0 : Vec F S1024x2048 .bf16) (x1 : Vec F S1024x2048 .bf16) (x2 : Vec F S1024x2048 .bf16) (x3 : Vec F S1x1024 .f32) :
    sout0_A_0 c i a3 h3 a4 h4 a5 h5 a6 h6 a7 h7 a8 h8 hc0 hc1 x0 x1 x2 x3
      = k0_pay4 x1 x2 (k0_pay3 x0 x2 (k0_pay1 (F := F))) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S1024x1024) hz, Cert.LibWholeStore.readCov_cons_whole (S := S1024x1024) _ hz,
    View.readCov_unit_zero (S := S1024x1024) _ hz]
  simp only [View.readAt_eq_ld, h3.read_unread, h4.read_unread, h5.read_unread, View.ld_unit_zero (S := S1024x2048) hz]

/-- A point with k = 1, handed the accumulator acc, writes ((acc + hi * w) + lo * w) + bias to the output block. -/
theorem block_last (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x2048 .bf16) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i)
    (x0 : Vec F S1024x2048 .bf16) (x1 : Vec F S1024x2048 .bf16) (x2 : Vec F S1024x2048 .bf16) (x3 : Vec F S1x1024 .f32)
    (acc : Vec F S1024x1024 .f32) :
    out0_B_4 c i a3 h3 a4 h4 a5 h5 a6 h6 a7 h7 a8 h8 hc0 hc1 x0 x1 x2 x3 acc
      = k0_pay5 (k0_pay4 x1 x2 (k0_pay3 x0 x2 acc)) x3 := by
  unfold out0_B_4
  rw [View.read_writes_eq_canon _ _ _ (cover0_B_4 c i a3 h3 a4 h4 a5 h5 a6 h6 a7 h7 a8 h8 hc0 hc1 x0 x1 x2 x3 acc)]
  unfold kernelRun0_B
  dsimp only
  sl_unfold_words
  rw [View.canon_unit_zero (S := S1024x1024) hz, Cert.LibWholeStore.readCov_cons_whole (S := S1024x1024) _ hz,
    View.readCov_unit_zero (S := S1024x1024) _ hz]
  simp only [View.readAt_eq_ld, h3.read_unread, h4.read_unread, h5.read_unread, h6.read_unread, h8.read_unread,
    View.ld_unit_zero (S := S1024x2048) hz, View.ld_unit_zero (S := S1024x1024) hz, View.ld_unit_zero (S := S1x1024) hz]

end Cert.KernelIdeal.Pieces

end
-- ==== Proof.Payload.lean ====
/-
  The body's arithmetic read at one entry, on the extended reals.

  A tile product contracts the last axis of both operands: entry (p, q) of  A * B^T  for two 1024 x 2048 blocks is the
  sum over k < 2048 of A (p, k) * B (q, k).  Into a zero tile the matrix unit leaves exactly that sum.  So what a
  point with k = 0 leaves in the accumulator is, at (p, q),  (0 + sum hi * w) + sum lo * w,  and what a point with
  k = 1 writes is  ((acc + sum hi * w) + sum lo * w) + bias q : the bias block has one row, repeated down the rows.
-/
import proofs.«121416_j32487132627344_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The tile product's dimension numbers: both operands contracted along their last axis. -/
abbrev D : DotDims S1024x2048 S1024x2048 S1024x1024 := dot_S1024x2048_S1024x2048_S1024x1024_1_1_0_0_n_n

theorem lhs_row (j : S1024x1024.Idx) (q : D.contr.Idx) : (D.lhsIdx j q 0).val = (j 0).val := by
  unfold DotDims.lhsIdx
  rw [dif_neg (show ¬(0 : Fin S1024x2048.rank) ∈ D.lhsBatch by decide),
    dif_pos (show (0 : Fin S1024x2048.rank) ∈ D.lhsNonContracting by decide)]
  rfl

theorem lhs_col (j : S1024x1024.Idx) (q : D.contr.Idx) : (D.lhsIdx j q 1).val = (q ⟨0, by decide⟩).val :=
  D.lhsIdx_val_of_single rfl j q

theorem rhs_row (j : S1024x1024.Idx) (q : D.contr.Idx) : (D.rhsIdx j q 0).val = (j 1).val := by
  unfold DotDims.rhsIdx
  rw [dif_neg (show ¬(0 : Fin S1024x2048.rank) ∈ D.rhsBatch by decide),
    dif_pos (show (0 : Fin S1024x2048.rank) ∈ D.rhsNonContracting by decide)]
  rfl

theorem rhs_col (j : S1024x1024.Idx) (q : D.contr.Idx) : (D.rhsIdx j q 1).val = (q ⟨0, by decide⟩).val :=
  D.rhsIdx_val_of_single rfl j q

/-- Entry (p, q) of a tile product into the zero tile. -/
theorem tile_product (A B : FVec Ideal S1024x2048 .bf16) (p q : Fin 1024) :
    matmul (φ₁ := .bf16) (φ₂ := .bf16) D none A B (constant (F := Ideal) S1024x1024 .f32 0x00000000#32) (ix2 p q)
      = ∑ k : Fin 2048, A (ix2 p k) * B (ix2 q k) := by
  show FloatOps.matmul (φ₁ := .bf16) (φ₂ := .bf16) D none A B (constant (F := Ideal) S1024x1024 .f32 0x00000000#32) (ix2 p q) = _
  rw [Ideal.matmul_constant_zero_apply, ← Equiv.sum_comp (contrEquiv1 D 2048 rfl rfl).symm]
  refine Finset.sum_congr rfl fun k _ => ?_
  have hk := contrEquiv1_symm_val D 2048 rfl rfl k
  have el : D.lhsIdx (ix2 p q) ((contrEquiv1 D 2048 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 2048 rfl rfl).symm k) = ix2 q k := funext fun a => Fin.ext (by
    match a with
    | ⟨0, _⟩ => exact rhs_row _ _
    | ⟨1, _⟩ => exact (rhs_col _ _).trans hk)
  rw [el, er]

/-- What a point with k = 0 leaves in the accumulator, at (p, q). -/
theorem first_apply (x0 x1 x2 : Vec Ideal S1024x2048 .bf16) (p q : Fin 1024) :
    k0_pay4 (F := Ideal) x1 x2 (k0_pay3 x0 x2 (k0_pay1 (F := Ideal))) (ix2 p q)
      = (0 + ∑ k : Fin 2048, x0 (ix2 p k) * x2 (ix2 q k)) + ∑ k : Fin 2048, x1 (ix2 p k) * x2 (ix2 q k) := by
  unfold k0_pay4 k0_pay3 k0_pay2 k0_pay1
  simp only [shapeCast_self]
  show (Ideal.ofBits .f32 0x00000000#32
      + matmul D none x0 x2 (constant (F := Ideal) S1024x1024 .f32 0x00000000#32) (ix2 p q))
      + matmul D none x1 x2 (constant (F := Ideal) S1024x1024 .f32 0x00000000#32) (ix2 p q) = _
  rw [tile_product, tile_product, Ideal.ofBits_zero_f32]

/-- What a point with k = 1 writes to the output block, at (p, q), from the accumulator it was handed. -/
theorem last_apply (x0 x1 x2 : Vec Ideal S1024x2048 .bf16) (x3 : Vec Ideal S1x1024 .f32) (acc : Vec Ideal S1024x1024 .f32)
    (p q : Fin 1024) :
    k0_pay5 (F := Ideal) (k0_pay4 x1 x2 (k0_pay3 x0 x2 acc)) x3 (ix2 p q)
      = ((acc (ix2 p q) + ∑ k : Fin 2048, x0 (ix2 p k) * x2 (ix2 q k)) + ∑ k : Fin 2048, x1 (ix2 p k) * x2 (ix2 q k))
        + x3 (ix2 (0 : Fin 1) q) := by
  unfold k0_pay5 k0_pay4 k0_pay3 k0_pay2
  simp only [shapeCast_self]
  show ((acc (ix2 p q)
      + matmul D none x0 x2 (constant (F := Ideal) S1024x1024 .f32 0x00000000#32) (ix2 p q))
      + matmul D none x1 x2 (constant (F := Ideal) S1024x1024 .f32 0x00000000#32) (ix2 p q))
      + broadcastTo S1024x1024 x3 broadcasts_S1x1024_S1024x1024 (ix2 p q) = _
  rw [tile_product, tile_product, broadcastTo_1b_ab_apply]

end Cert.KernelIdeal.Payload

end
-- ==== Proof.Pow2.lean ====
/-
  The scalars of the two quantizers, on the extended reals.

  Fixed-point rounding sends a to clamp (floor (a / 2^-16) * 2^-16) between -32768 and 32767.  One program spells the
  scaling as a product with 65536, the other as a quotient by 2^-16; both literals are exact binary floats, and on the
  extended reals a quotient by a nonzero real IS the product with its inverse (at the infinities too), so the two
  spellings are one function.  Because of the clamp the rounded value is always a real number, whatever a is, so the
  rounded value minus itself is 0: the low half of a value split into a high and a low part vanishes once the change
  of float format is the identity.

  The weight quantizer sends w to exp (ln2 * roundeven (log |w| / log 2)) * sign w, spelled the same way by both
  programs; it is kept as one named function and never opened.
-/
import Idealize.ShloMosaic.PureOps.Ideal

noncomputable section

namespace Cert.ShiftQ

open Idealize.ShloMosaic

/-- The pattern of 65536.0 denotes the real 65536. -/
theorem ofBits_two16 : Ideal.ofBits .f32 0x47800000#32 = ((65536 : ℝ) : EReal) := by
  simp [Ideal.ofBits, Ideal.ieee, -EReal.coe_mul]; norm_num

/-- The pattern of 2^-16 denotes the real 1/65536. -/
theorem ofBits_twoNeg16 : Ideal.ofBits .f32 0x37800000#32 = ((1 / 65536 : ℝ) : EReal) := by
  simp [Ideal.ofBits, Ideal.ieee, -EReal.coe_mul]; norm_num

/-- The lower clamp bound denotes the real -32768. -/
theorem ofBits_lo : Ideal.ofBits .f32 0xC7000000#32 = ((-32768 : ℝ) : EReal) := by
  simp [Ideal.ofBits, Ideal.ieee, -EReal.coe_mul]; norm_num

/-- The upper clamp bound denotes the real 32767. -/
theorem ofBits_hi : Ideal.ofBits .f32 0x46FFFE00#32 = ((32767 : ℝ) : EReal) := by
  simp [Ideal.ofBits, Ideal.ieee, -EReal.coe_mul]; norm_num

/-- A quotient by 2^-16 is the product with 65536, at every extended real. -/
theorem div_twoNeg16 (x : EReal) :
    Ideal.div x (Ideal.ofBits .f32 0x37800000#32) = x * Ideal.ofBits .f32 0x47800000#32 := by
  rw [ofBits_twoNeg16, ofBits_two16, Ideal.div_coe (by norm_num)]
  congr 2; norm_num

/-- A value clamped between the two bounds is a real number. -/
theorem clamp_real (v : EReal) :
    ∃ r : ℝ, min (Ideal.ofBits .f32 0x46FFFE00#32) (max (Ideal.ofBits .f32 0xC7000000#32) v) = (r : EReal) := by
  rw [ofBits_lo, ofBits_hi]
  induction v using EReal.rec with
  | bot =>
    refine ⟨-32768, ?_⟩
    rw [max_eq_left bot_le, min_eq_right (by exact_mod_cast (by norm_num : (-32768 : ℝ) ≤ 32767))]
  | coe r =>
    refine ⟨min 32767 (max (-32768) r), ?_⟩
    rw [EReal.coe_strictMono.monotone.map_min, EReal.coe_strictMono.monotone.map_max]
  | top =>
    refine ⟨32767, ?_⟩
    rw [max_eq_right le_top, min_eq_left le_top]

/-- Fixed-point rounding, the scaling spelled as a product with 65536. -/
def fix (a : Ideal .f32) : Ideal .f32 :=
  FloatOps.minimumf (FloatOps.ofBits .f32 0x46FFFE00#32) (FloatOps.maximumf (FloatOps.ofBits .f32 0xC7000000#32)
    (FloatOps.mulf (FloatOps.hostUnary .floor (FloatOps.mulf a (FloatOps.ofBits .f32 0x47800000#32)))
      (FloatOps.ofBits .f32 0x37800000#32)))

/-- The same rounding with the scaling spelled as a quotient by 2^-16. -/
theorem fix_of_div (a : Ideal .f32) :
    FloatOps.minimumf (FloatOps.ofBits .f32 0x46FFFE00#32) (FloatOps.maximumf (FloatOps.ofBits .f32 0xC7000000#32)
      (FloatOps.mulf (FloatOps.hostUnary .floor (FloatOps.hostDivf a (FloatOps.ofBits (F := Ideal) .f32 0x37800000#32)))
        (FloatOps.ofBits .f32 0x37800000#32))) = fix a := by
  unfold fix
  simp only [Ideal.hostDivf_def, Ideal.ofBits_def, Ideal.mulf_def]
  rw [div_twoNeg16]

/-- The rounded value is a real number, whatever the input. -/
theorem fix_real (a : Ideal .f32) : ∃ r : ℝ, fix a = (r : EReal) :=
  clamp_real
    (FloatOps.mulf (F := Ideal) (φ := .f32) (FloatOps.hostUnary .floor (FloatOps.mulf a (FloatOps.ofBits .f32 0x47800000#32)))
      (FloatOps.ofBits .f32 0x37800000#32))

/-- The rounded value minus itself is zero: it is a real number. -/
theorem fix_sub_self (a : Ideal .f32) : FloatOps.subf (fix a) (fix a) = (0 : EReal) := by
  obtain ⟨r, h⟩ := fix_real a
  rw [h, Ideal.subf_def, ← EReal.coe_sub, sub_self, EReal.coe_zero]

/-- The power-of-two weight quantizer, as both programs spell it. -/
def pow2 (w : Ideal .f32) : Ideal .f32 :=
  FloatOps.mulf
    (FloatOps.hostUnary .exp (FloatOps.mulf (FloatOps.ofBits .f32 0x3F317218#32)
      (FloatOps.hostUnary .roundeven (FloatOps.hostDivf (FloatOps.hostUnary .log (FloatOps.hostAbsf w))
        (FloatOps.hostUnary .log (FloatOps.ofBits .f32 0x40000000#32))))))
    (FloatOps.hostUnary .sign w)

end Cert.ShiftQ

end
-- ==== Proof.LibTileSum.lean ====
/-
  Sums over a range cut into equal blocks, and over a square cut into square tiles.

  In a commutative monoid the order and grouping of a finite sum are free. So the sum of `g` over the `A · B` indices
  `0 … A·B − 1` is the sum, over the `A` blocks, of the sum over the `B` indices `B·i … B·i + B − 1` of block `i`; and the sum of
  `f` over a square of side `A · B` is the sum over its `A × A` tiles of the sum over the `B × B` entries of each tile.
  Likewise the sum over the points `t = B·i + j` of an `A × B` grid visited row by row is the double sum over `(i, j)`.
  Only associativity and commutativity of `+` are used, so the laws hold on the extended reals whatever the terms are.
-/
import Mathlib.Algebra.BigOperators.Fin
import Mathlib.Algebra.BigOperators.Intervals
import Mathlib.Logic.Equiv.Fin.Basic
import Mathlib.Tactic

namespace Cert.LibTileSum

open Finset

/-- Index `r` of block `i` lies below `A · B`. -/
theorem blk_lt {A B : ℕ} (i : Fin A) (r : Fin B) : B * i.val + r.val < A * B := by
  have h1 : B * (i.val + 1) ≤ B * A := Nat.mul_le_mul_left B i.isLt
  have h2 := r.isLt
  rw [Nat.mul_add, Nat.mul_one] at h1
  rw [Nat.mul_comm A B]
  omega

/-- Index `r` of block `i`, as an index of the whole range. -/
def blk {A B N : ℕ} (h : A * B = N) (i : Fin A) (r : Fin B) : Fin N := ⟨B * i.val + r.val, h ▸ blk_lt i r⟩

@[simp] theorem blk_val {A B N : ℕ} (h : A * B = N) (i : Fin A) (r : Fin B) : (blk h i r).val = B * i.val + r.val := rfl

/-- A sum over `A · B` indices, taken block by block. -/
theorem sum_blocks {M : Type*} [AddCommMonoid M] {A B N : ℕ} (h : A * B = N) (g : Fin N → M) :
    ∑ x : Fin N, g x = ∑ i : Fin A, ∑ r : Fin B, g (blk h i r) := by
  subst h
  rw [← Equiv.sum_comp finProdFinEquiv g, Fintype.sum_prod_type]
  refine Finset.sum_congr rfl fun i _ => Finset.sum_congr rfl fun r _ => congrArg g (Fin.ext ?_)
  show r.val + B * i.val = B * i.val + r.val
  exact Nat.add_comm _ _

/-- A sum over a square of side `A · B`, taken tile by tile. -/
theorem sum_tiles {M : Type*} [AddCommMonoid M] {A B N : ℕ} (h : A * B = N) (f : Fin N → Fin N → M) :
    ∑ x : Fin N, ∑ y : Fin N, f x y
      = ∑ i : Fin A, ∑ j : Fin A, ∑ r : Fin B, ∑ c : Fin B, f (blk h i r) (blk h j c) := by
  calc ∑ x : Fin N, ∑ y : Fin N, f x y
      = ∑ i : Fin A, ∑ r : Fin B, ∑ y : Fin N, f (blk h i r) y := sum_blocks h _
    _ = ∑ i : Fin A, ∑ r : Fin B, ∑ j : Fin A, ∑ c : Fin B, f (blk h i r) (blk h j c) :=
        Finset.sum_congr rfl fun i _ => Finset.sum_congr rfl fun r _ => sum_blocks h _
    _ = ∑ i : Fin A, ∑ j : Fin A, ∑ r : Fin B, ∑ c : Fin B, f (blk h i r) (blk h j c) :=
        Finset.sum_congr rfl fun i _ => Finset.sum_comm

/-- A sum over the points of an `A × B` grid visited row by row (point `t` has coordinates `(t / B mod A, t mod B)`)
    is the double sum over the coordinates. -/
theorem sum_rowMajor {M : Type*} [AddCommMonoid M] {A B N : ℕ} (h : A * B = N) (hA : 0 < A) (hB : 0 < B)
    (g : Fin A → Fin B → M) :
    ∑ t : Fin N, g ⟨t.val / B % A, Nat.mod_lt _ hA⟩ ⟨t.val % B, Nat.mod_lt _ hB⟩ = ∑ i : Fin A, ∑ j : Fin B, g i j := by
  rw [sum_blocks h]
  refine Finset.sum_congr rfl fun i _ => Finset.sum_congr rfl fun j _ => ?_
  have e1 : (B * i.val + j.val) / B = i.val := by
    rw [Nat.add_comm, Nat.add_mul_div_left _ _ hB, Nat.div_eq_of_lt j.isLt, Nat.zero_add]
  have e2 : (B * i.val + j.val) % B = j.val := by
    rw [Nat.add_comm, Nat.add_mul_mod_self_left, Nat.mod_eq_of_lt j.isLt]
  congr 1
  · exact Fin.ext (by show (B * i.val + j.val) / B % A = i.val; rw [e1, Nat.mod_eq_of_lt i.isLt])
  · exact Fin.ext (by show (B * i.val + j.val) % B = j.val; exact e2)

end Cert.LibTileSum
-- ==== Proof.Spec.lean ====
/-
  The result as one function of the three argument arrays, and the law that joins the two programs.

  With fix the fixed-point rounding and pow2 the power-of-two quantizer, entry (r, c) of the result is

      sum over k < 4096 of fix (x (r, k)) * pow2 (w (c, k))   +   fix (b c).

  The blocked program reaches it in four steps over the two halves of the contracted axis, each step adding a product
  of a 2048-wide slice of the rounded input (or of its low part) with the matching slice of the quantized weight to a
  running tile that starts at zero.  The low part is a rounded value minus itself, which is zero, and zero times
  anything is zero on the extended reals, so both low-part sums vanish; what remains is the sum over the first half
  plus the sum over the second half, which is the sum over the whole axis because + is associative and commutative.
  No finiteness of x, w or b is used.
-/
import Idealize.ShloMosaic.PureOps.Ideal
import Idealize.ShloMosaic.Lib.ValueIdx
import proofs.«121416_j32487132627344_2_alg».proof.Proof.Pow2
import proofs.«121416_j32487132627344_2_alg».proof.Proof.LibTileSum

noncomputable section

namespace Cert.ShiftQ

open Idealize.ShloMosaic Idealize.ShloMosaic.ValueIdx

/-- Entry (r, c) of the result: the contraction of the rounded input row with the quantized weight row, plus the
    rounded bias. -/
def G (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => (∑ k : Fin 4096, fix (x (ix2 (i 0) k)) * pow2 (w (ix2 (i 1) k))) + fix (b (ix1 (i 1)))

/-- Column k of half h of the contracted axis. -/
abbrev half (h : Fin 2) (k : Fin 2048) : Fin 4096 := Cert.LibTileSum.blk (A := 2) (B := 2048) (by norm_num) h k

/-- The four-step accumulation over the two halves of the contracted axis, each half contributing the high part's
    sum and then the low part's, is the sum over the whole axis when every low-part term is a rounded value minus
    itself. -/
theorem four_steps (u : Fin 4096 → EReal) (v : Fin 4096 → EReal) (β : EReal) (hu : ∀ k, ∃ r : ℝ, u k = (r : EReal)) :
    ((((0 + ∑ k : Fin 2048, u (half 0 k) * v (half 0 k)) + ∑ k : Fin 2048, (u (half 0 k) - u (half 0 k)) * v (half 0 k))
        + ∑ k : Fin 2048, u (half 1 k) * v (half 1 k)) + ∑ k : Fin 2048, (u (half 1 k) - u (half 1 k)) * v (half 1 k)) + β
      = (∑ k : Fin 4096, u k * v k) + β := by
  have hz : ∀ h : Fin 2, ∑ k : Fin 2048, (u (half h k) - u (half h k)) * v (half h k) = 0 := fun h =>
    Finset.sum_eq_zero fun k _ => by
      obtain ⟨r, hr⟩ := hu (half h k)
      rw [hr, ← EReal.coe_sub, sub_self, EReal.coe_zero, zero_mul]
  rw [hz 0, hz 1, zero_add, add_zero, add_zero,
    Cert.LibTileSum.sum_blocks (A := 2) (B := 2048) (by norm_num) (fun k => u k * v k), Fin.sum_univ_two]

end Cert.ShiftQ

end
-- ==== Proof.Entry.lean ====
/-
  One entry of one output block is G there.

  Fix an output block and an entry (p, q) of it, lying at (R, C) of the whole result.  Over the two halves h = 0, 1 of
  the contracted axis the point with k = h is handed: a high block whose row p is the rounded row R of x on half h, a
  low block whose row p is that row minus itself, and a weight block whose row q is the quantized row C of w on half
  h; the point with k = 1 is also handed the bias block, whose entry q is the rounded b C.  Then what the second point
  writes at (p, q) — the accumulation of the four products from zero, plus the bias — is G (R, C): the low products
  vanish and the two halves make the whole sum.
-/
import proofs.«121416_j32487132627344_2_alg».proof.Proof.Payload
import proofs.«121416_j32487132627344_2_alg».proof.Proof.Spec

noncomputable section

namespace Cert.KernelIdeal.Entry

open Cert.KernelIdeal Cert.KernelIdeal.Gen Idealize.ShloMosaic Idealize.ShloMosaic.ValueIdx Cert.ShiftQ

theorem entry_eq (x : S8192x4096.Idx → EReal) (w : S4096x4096.Idx → EReal) (b : S4096.Idx → EReal)
    (R : Fin 8192) (C : Fin 4096) (p q : Fin 1024)
    (A0 L0 W0 A1 L1 W1 : Vec Ideal S1024x2048 .bf16) (B : Vec Ideal S1x1024 .f32)
    (hA0 : ∀ k : Fin 2048, A0 (ix2 p k) = fix (x (ix2 R (half 0 k))))
    (hL0 : ∀ k : Fin 2048, L0 (ix2 p k) = fix (x (ix2 R (half 0 k))) - fix (x (ix2 R (half 0 k))))
    (hW0 : ∀ k : Fin 2048, W0 (ix2 q k) = pow2 (w (ix2 C (half 0 k))))
    (hA1 : ∀ k : Fin 2048, A1 (ix2 p k) = fix (x (ix2 R (half 1 k))))
    (hL1 : ∀ k : Fin 2048, L1 (ix2 p k) = fix (x (ix2 R (half 1 k))) - fix (x (ix2 R (half 1 k))))
    (hW1 : ∀ k : Fin 2048, W1 (ix2 q k) = pow2 (w (ix2 C (half 1 k))))
    (hB : B (ix2 (0 : Fin 1) q) = fix (b (ix1 C))) :
    k0_pay5 (F := Ideal) (k0_pay4 L1 W1 (k0_pay3 A1 W1 (k0_pay4 L0 W0 (k0_pay3 A0 W0 (k0_pay1 (F := Ideal)))))) B (ix2 p q)
      = G x w b (ix2 R C) := by
  refine (Payload.last_apply A1 L1 W1 B _ p q).trans ?_
  rw [Payload.first_apply A0 L0 W0 p q, hB]
  simp only [hA0, hL0, hW0, hA1, hL1, hW1]
  exact four_steps (fun k => fix (x (ix2 R k))) (fun k => pow2 (w (ix2 C k))) (fix (b (ix1 C)))
    (fun k => fix_real (x (ix2 R k)))

end Cert.KernelIdeal.Entry

end
-- ==== Proof.WindowArrays.lean ====
/-
  The four arrays the blocked product reads, as the host operations before it leave them.

  The high part is the fixed-point rounding of x, entry by entry (the change to a narrower float format is the
  identity on the extended reals).  The low part is the rounded value minus the high part widened back: the rounded
  value minus itself.  The weight operand is the power-of-two quantizer of w, entry by entry.  The bias operand is the
  fixed-point rounding of b, laid out as one row.
-/
import proofs.«121416_j32487132627344_2_alg».proof.Proof.Gen.KernelIdeal.Frame
import proofs.«121416_j32487132627344_2_alg».proof.Proof.Pow2
import Idealize.ShloMosaic.Lib.StableHlo.Run
import Idealize.ShloMosaic.Lib.ValueIdx
import Idealize.ShloMosaic.Lib.ValueLayout

set_option maxRecDepth 16384

noncomputable section

namespace Cert.KernelIdeal.WindowArrays

open Cert.KernelIdeal Cert.KernelIdeal.Gen Idealize.ShloMosaic Idealize.ShloMosaic.TcCoe Idealize.SL.Sem
open Idealize.ShloMosaic.StableHlo Idealize.ShloMosaic.ValueIdx Cert.ShiftQ

variable (m : (ℓ : Loc nD τ sig) → Buf (Elt Ideal) ℓ)

/-- The high part: the rounded input. -/
theorem hi_array (c : Dev nD) :
    (V m c main_v6 : S8192x4096.Idx → EReal) = fun j => fix (m ((c : Thread nD τ).loc main_arg0) j) := by
  dsimp only [V]
  simp only [hostOps0, hostOps0_1, hostOps0_2, hostOps0_3, hostOps0_4, hostOps0_5, hostOps0_6, List.flatten_cons,
    List.flatten_nil, List.append_nil, List.cons_append, List.nil_append]
  after_results_simp
  rfl

/-- The low part: the rounded input minus itself. -/
theorem lo_array (c : Dev nD) :
    (V m c main_v9 : S8192x4096.Idx → EReal)
      = fun j => FloatOps.subf (fix (m ((c : Thread nD τ).loc main_arg0) j)) (fix (m ((c : Thread nD τ).loc main_arg0) j)) := by
  dsimp only [V]
  simp only [hostOps0, hostOps0_1, hostOps0_2, hostOps0_3, hostOps0_4, hostOps0_5, hostOps0_6, List.flatten_cons,
    List.flatten_nil, List.append_nil, List.cons_append, List.nil_append]
  after_results_simp
  rfl

/-- The weight operand: the quantized weight. -/
theorem w_array (c : Dev nD) :
    (V m c main_v21 : S4096x4096.Idx → EReal) = fun j => pow2 (m ((c : Thread nD τ).loc main_arg1) j) := by
  dsimp only [V]
  simp only [hostOps0, hostOps0_1, hostOps0_2, hostOps0_3, hostOps0_4, hostOps0_5, hostOps0_6, List.flatten_cons,
    List.flatten_nil, List.append_nil, List.cons_append, List.nil_append]
  after_results_simp
  rfl

/-- The bias operand: the rounded bias as one row. -/
theorem b_array (c : Dev nD) (u : Fin 1) (q : Fin 4096) :
    (V m c main_v28 : S1x4096.Idx → EReal) (ix2 u q) = fix (m ((c : Thread nD τ).loc main_arg2) (ix1 q)) := by
  have e : (V m c main_v28 : S1x4096.Idx → EReal)
      = shapeCast S1x4096 (fun j : S4096.Idx => fix (m ((c : Thread nD τ).loc main_arg2) j)) shapeCasts_S4096_S1x4096 := by
    dsimp only [V]
    simp only [hostOps0, hostOps0_1, hostOps0_2, hostOps0_3, hostOps0_4, hostOps0_5, hostOps0_6, List.flatten_cons,
      List.flatten_nil, List.append_nil, List.cons_append, List.nil_append]
    after_results_simp
    rfl
  rw [e, shapeCast_a_1a_apply]

end Cert.KernelIdeal.WindowArrays

end
-- ==== Proof.Blocks.lean ====
/-
  From the blocks to the whole result array.

  The grid is 8 x 4 x 2, visited row by row with the contraction half k innermost: point t has i = t / 8,
  j = t / 2 mod 4, k = t mod 2.  At point t the high and low windows hold rows 1024 i .. 1024 i + 1023 and columns
  2048 k .. 2048 k + 2047 of their arrays, the weight window rows 1024 j .. and the same columns, the bias window
  columns 1024 j .. of its one row, and the output window the 1024 x 1024 tile (i, j) of the result.  The output block
  is written back exactly at the odd points; the point before an odd point is the even point of the same tile, which
  restarts the accumulator from zero, so the tile written at t = (i, j, 1) depends on the blocks at t - 1 and t only and
  is G on that tile.  The 32 tiles written back cover the result.
-/
import proofs.«121416_j32487132627344_2_alg».proof.Proof.Gen.KernelIdeal.Value
import proofs.«121416_j32487132627344_2_alg».proof.Proof.Pieces
import proofs.«121416_j32487132627344_2_alg».proof.Proof.Entry
import proofs.«121416_j32487132627344_2_alg».proof.Proof.WindowArrays

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.ShiftQ
open Idealize.ShloMosaic.Pipeline (Dat)

variable (m : (ℓ : Loc nD τ sig) → Buf (Elt Ideal) ℓ)

/-- The printed index maps in closed form, decided over the 64 points. -/
theorem idx_facts : ∀ t : Fin cfg0.N,
    win0_0.index t (0 : Fin 2) = t.val / 8 ∧ win0_0.index t (1 : Fin 2) = t.val % 2
    ∧ win0_1.index t (0 : Fin 2) = t.val / 8 ∧ win0_1.index t (1 : Fin 2) = t.val % 2
    ∧ win0_2.index t (0 : Fin 2) = t.val / 2 % 4 ∧ win0_2.index t (1 : Fin 2) = t.val % 2
    ∧ win0_3.index t (0 : Fin 2) = 0 ∧ win0_3.index t (1 : Fin 2) = t.val / 2 % 4
    ∧ win0_4.index t (0 : Fin 2) = t.val / 8 ∧ win0_4.index t (1 : Fin 2) = t.val / 2 % 4 :=
  (by decide +kernel : ∀ t : Fin grid0.N, _)

/-- Row p of the high block at t is the rounded row R of x on half h. -/
theorem hi_block (c : Dev nD) (t : Fin cfg0.N) (p : Fin 1024) (R : Fin 8192) (h : Fin 2)
    (hR : R.val = 1024 * (t.val / 8) + p.val) (hh : h.val = t.val % 2) (k : Fin 2048) :
    (iblk m c 0 t : Vec Ideal S1024x2048 .bf16) (ix2 p k)
      = fix (m ((c : Thread nD τ).loc main_arg0) (ix2 R (half h k))) := by
  obtain ⟨e0, e1, -⟩ := idx_facts t
  unfold iblk
  rw [View.read_apply]
  refine (congrFun (WindowArrays.hi_array m c) _).trans ?_
  refine congrArg (fun i => fix (m ((c : Thread nD τ).loc main_arg0) i)) (funext fun a => Fin.ext ?_)
  match a with
  | ⟨0, _⟩ => show win0_0.index t (0 : Fin 2) * 1024 + 1 * p.val = R.val; rw [e0, hR]; omega
  | ⟨1, _⟩ => show win0_0.index t (1 : Fin 2) * 2048 + 1 * k.val = 2048 * h.val + k.val; rw [e1, hh]; omega

/-- Row p of the low block at t is that rounded row minus itself. -/
theorem lo_block (c : Dev nD) (t : Fin cfg0.N) (p : Fin 1024) (R : Fin 8192) (h : Fin 2)
    (hR : R.val = 1024 * (t.val / 8) + p.val) (hh : h.val = t.val % 2) (k : Fin 2048) :
    (iblk m c 1 t : Vec Ideal S1024x2048 .bf16) (ix2 p k)
      = fix (m ((c : Thread nD τ).loc main_arg0) (ix2 R (half h k)))
        - fix (m ((c : Thread nD τ).loc main_arg0) (ix2 R (half h k))) := by
  obtain ⟨-, -, e0, e1, -⟩ := idx_facts t
  unfold iblk
  rw [View.read_apply]
  refine (congrFun (WindowArrays.lo_array m c) _).trans ?_
  refine congrArg (fun i => fix (m ((c : Thread nD τ).loc main_arg0) i) - fix (m ((c : Thread nD τ).loc main_arg0) i))
    (funext fun a => Fin.ext ?_)
  match a with
  | ⟨0, _⟩ => show win0_1.index t (0 : Fin 2) * 1024 + 1 * p.val = R.val; rw [e0, hR]; omega
  | ⟨1, _⟩ => show win0_1.index t (1 : Fin 2) * 2048 + 1 * k.val = 2048 * h.val + k.val; rw [e1, hh]; omega

/-- Row q of the weight block at t is the quantized row C of w on half h. -/
theorem w_block (c : Dev nD) (t : Fin cfg0.N) (q : Fin 1024) (C : Fin 4096) (h : Fin 2)
    (hC : C.val = 1024 * (t.val / 2 % 4) + q.val) (hh : h.val = t.val % 2) (k : Fin 2048) :
    (iblk m c 2 t : Vec Ideal S1024x2048 .bf16) (ix2 q k)
      = pow2 (m ((c : Thread nD τ).loc main_arg1) (ix2 C (half h k))) := by
  obtain ⟨-, -, -, -, e0, e1, -⟩ := idx_facts t
  unfold iblk
  rw [View.read_apply]
  refine (congrFun (WindowArrays.w_array m c) _).trans ?_
  refine congrArg (fun i => pow2 (m ((c : Thread nD τ).loc main_arg1) i)) (funext fun a => Fin.ext ?_)
  match a with
  | ⟨0, _⟩ => show win0_2.index t (0 : Fin 2) * 1024 + 1 * q.val = C.val; rw [e0, hC]; omega
  | ⟨1, _⟩ => show win0_2.index t (1 : Fin 2) * 2048 + 1 * k.val = 2048 * h.val + k.val; rw [e1, hh]; omega

/-- Entry q of the bias block at t is the rounded b C. -/
theorem b_block (c : Dev nD) (t : Fin cfg0.N) (q : Fin 1024) (C : Fin 4096)
    (hC : C.val = 1024 * (t.val / 2 % 4) + q.val) :
    (iblk m c 3 t : Vec Ideal S1x1024 .f32) (ix2 (0 : Fin 1) q) = fix (m ((c : Thread nD τ).loc main_arg2) (ix1 C)) := by
  obtain ⟨-, -, -, -, -, -, e0, e1, -⟩ := idx_facts t
  unfold iblk
  rw [View.read_apply]
  refine Eq.trans (congrArg (V m c main_v28 : S1x4096.Idx → EReal) (?_ : _ = ix2 (0 : Fin 1) C)) (WindowArrays.b_array m c 0 C)
  refine funext fun a => Fin.ext ?_
  match a with
  | ⟨0, _⟩ => show win0_3.index t (0 : Fin 2) * 1 + 1 * 0 = 0; rw [e0]
  | ⟨1, _⟩ => show win0_3.index t (1 : Fin 2) * 1024 + 1 * q.val = C.val; rw [e1, hC]; omega

/-- The output block is written back exactly at the odd points. -/
theorem odd_of_flush (t : Fin cfg0.N) (hf : (cfg0.win 4).flush t = true) : t.val % 2 = 1 := (flush0_4 t).mp hf

/-- WHAT AN ODD POINT WRITES BACK is its tile of G of the three arguments. -/
theorem flushed_eq (c : Dev nD) (t : Fin cfg0.N) (hf : (cfg0.win 4).flush t = true) :
    (dats m 0 c).flushed 4 t = ((cfg0.win 4).blk t).view.read (Elt Ideal)
      (G (m ((c : Thread nD τ).loc main_arg0)) (m ((c : Thread nD τ).loc main_arg1)) (m ((c : Thread nD τ).loc main_arg2))) := by
  have hN : t.val < 64 := lt_of_lt_of_eq t.isLt (show cfg0.N = 64 from N_0)
  have h1 : t.val % 2 = 1 := odd_of_flush t hf
  have h0 : ¬t.val % 2 = 0 := by omega
  have hlt : t.val - 1 < cfg0.N := Nat.lt_of_le_of_lt (Nat.sub_le _ _) t.isLt
  have hp0 : (t.val - 1) % 2 = 0 := by omega
  have hp1 : ¬(t.val - 1) % 2 = 1 := by omega
  obtain ⟨-, -, -, -, -, -, -, -, e40, e41⟩ := idx_facts t
  rw [Value.flushed4_B m c t h0 h1]
  have hprev := congrArg Prod.snd (outsAt0_A m c ⟨t.val - 1, hlt⟩ hp0 hp1)
  dsimp only at hprev
  rw [hprev]
  rw [Pieces.block_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)]
  rw [Pieces.scratch_first c (grid0.coords ⟨t.val - 1, hlt⟩) (ms0_0 ⟨t.val - 1, hlt⟩) (hs0_0 ⟨t.val - 1, hlt⟩) (ms0_1 ⟨t.val - 1, hlt⟩) (hs0_1 ⟨t.val - 1, hlt⟩) (ms0_2 ⟨t.val - 1, hlt⟩) (hs0_2 ⟨t.val - 1, hlt⟩) (ms0_3 ⟨t.val - 1, hlt⟩) (hs0_3 ⟨t.val - 1, hlt⟩) (ms0_4 ⟨t.val - 1, hlt⟩) (hs0_4 ⟨t.val - 1, hlt⟩) scM0_0 (Memref.isWhole_whole _) ((hcond0_0 ⟨t.val - 1, hlt⟩).mpr hp0) (fun h => hp1 ((hcond0_1 ⟨t.val - 1, hlt⟩).mp h)) (iblk m c 0 ⟨t.val - 1, hlt⟩) (iblk m c 1 ⟨t.val - 1, hlt⟩) (iblk m c 2 ⟨t.val - 1, hlt⟩) (iblk m c 3 ⟨t.val - 1, hlt⟩)]
  funext j
  have hj0 : (j 0).val < 1024 := (j 0).isLt
  have hj1 : (j 1).val < 1024 := (j 1).isLt
  rw [View.read_apply]
  have hemb : ((cfg0.win 4).blk t).view.emb j
      = ix2 (⟨1024 * (t.val / 8) + (j 0).val, by omega⟩ : Fin 8192) (⟨1024 * (t.val / 2 % 4) + (j 1).val, by omega⟩ : Fin 4096) :=
    funext fun a => Fin.ext (by
      match a with
      | ⟨0, _⟩ => show win0_4.index t (0 : Fin 2) * 1024 + 1 * (j 0).val = 1024 * (t.val / 8) + (j 0).val; rw [e40]; omega
      | ⟨1, _⟩ => show win0_4.index t (1 : Fin 2) * 1024 + 1 * (j 1).val = 1024 * (t.val / 2 % 4) + (j 1).val; rw [e41]; omega)
  rw [hemb]
  have hj : (cfg0.win 4).xinj (grid0.coords t) j = ix2 (⟨(j 0).val, hj0⟩ : Fin 1024) (⟨(j 1).val, hj1⟩ : Fin 1024) :=
    funext fun a => Fin.ext (by
      match a with
      | ⟨0, _⟩ => rfl
      | ⟨1, _⟩ => rfl)
  show k0_pay5 (F := Ideal)
      (k0_pay4 (iblk m c 1 t) (iblk m c 2 t)
        (k0_pay3 (iblk m c 0 t) (iblk m c 2 t)
          (k0_pay4 (iblk m c 1 ⟨t.val - 1, hlt⟩) (iblk m c 2 ⟨t.val - 1, hlt⟩)
            (k0_pay3 (iblk m c 0 ⟨t.val - 1, hlt⟩) (iblk m c 2 ⟨t.val - 1, hlt⟩) (k0_pay1 (F := Ideal))))))
      (iblk m c 3 t) ((cfg0.win 4).xinj (grid0.coords t) j) = _
  rw [hj]
  exact Entry.entry_eq (m ((c : Thread nD τ).loc main_arg0)) (m ((c : Thread nD τ).loc main_arg1)) (m ((c : Thread nD τ).loc main_arg2))
    ⟨1024 * (t.val / 8) + (j 0).val, by omega⟩ ⟨1024 * (t.val / 2 % 4) + (j 1).val, by omega⟩ ⟨(j 0).val, hj0⟩ ⟨(j 1).val, hj1⟩
    (iblk m c 0 ⟨t.val - 1, hlt⟩) (iblk m c 1 ⟨t.val - 1, hlt⟩) (iblk m c 2 ⟨t.val - 1, hlt⟩) (iblk m c 0 t) (iblk m c 1 t) (iblk m c 2 t) (iblk m c 3 t)
    (hi_block m c ⟨t.val - 1, hlt⟩ _ _ 0 (by show 1024 * (t.val / 8) + (j 0).val = 1024 * ((t.val - 1) / 8) + (j 0).val; omega)
      (by show 0 = (t.val - 1) % 2; omega))
    (lo_block m c ⟨t.val - 1, hlt⟩ _ _ 0 (by show 1024 * (t.val / 8) + (j 0).val = 1024 * ((t.val - 1) / 8) + (j 0).val; omega)
      (by show 0 = (t.val - 1) % 2; omega))
    (w_block m c ⟨t.val - 1, hlt⟩ _ _ 0 (by show 1024 * (t.val / 2 % 4) + (j 1).val = 1024 * ((t.val - 1) / 2 % 4) + (j 1).val; omega)
      (by show 0 = (t.val - 1) % 2; omega))
    (hi_block m c t _ _ 1 (by show 1024 * (t.val / 8) + (j 0).val = 1024 * (t.val / 8) + (j 0).val; rfl)
      (by show 1 = t.val % 2; omega))
    (lo_block m c t _ _ 1 (by show 1024 * (t.val / 8) + (j 0).val = 1024 * (t.val / 8) + (j 0).val; rfl)
      (by show 1 = t.val % 2; omega))
    (w_block m c t _ _ 1 (by show 1024 * (t.val / 2 % 4) + (j 1).val = 1024 * (t.val / 2 % 4) + (j 1).val; rfl)
      (by show 1 = t.val % 2; omega))
    (b_block m c t _ _ (by show 1024 * (t.val / 2 % 4) + (j 1).val = 1024 * (t.val / 2 % 4) + (j 1).val; rfl))

/-- An index of the result is in point t's block iff each coordinate is in the block's range on its axis. -/
theorem mem_blk (t : Fin cfg0.N) (i : S8192x4096.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v29).slice (win0_4.rect t)).set ↔ _
  rw [View.set_slice_whole, Rect.mem_set_unit]
  exact Iff.rfl

/-- Every entry of the result lies in the tile some odd point writes back: entry (r, c) in tile (r / 1024, c / 1024). -/
theorem cover (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 64 := N_0
  have hlt : 8 * ((i 0).val / 1024) + 2 * ((i 1).val / 1024) + 1 < cfg0.N := by rw [hN]; omega
  refine ⟨⟨8 * ((i 0).val / 1024) + 2 * ((i 1).val / 1024) + 1, hlt⟩, (flush0_4 _).mpr (by show (8 * ((i 0).val / 1024) + 2 * ((i 1).val / 1024) + 1) % 2 = 1; omega), ?_⟩
  obtain ⟨-, -, -, -, -, -, -, -, e40, e41⟩ := idx_facts ⟨8 * ((i 0).val / 1024) + 2 * ((i 1).val / 1024) + 1, hlt⟩
  rw [mem_blk]
  intro a
  match a with
  | ⟨0, _⟩ =>
    show win0_4.index ⟨8 * ((i 0).val / 1024) + 2 * ((i 1).val / 1024) + 1, hlt⟩ (0 : Fin 2) * 1024 ≤ (i 0).val
      ∧ (i 0).val < win0_4.index ⟨8 * ((i 0).val / 1024) + 2 * ((i 1).val / 1024) + 1, hlt⟩ (0 : Fin 2) * 1024 + 1024
    rw [e40]
    show (8 * ((i 0).val / 1024) + 2 * ((i 1).val / 1024) + 1) / 8 * 1024 ≤ (i 0).val
      ∧ (i 0).val < (8 * ((i 0).val / 1024) + 2 * ((i 1).val / 1024) + 1) / 8 * 1024 + 1024
    omega
  | ⟨1, _⟩ =>
    show win0_4.index ⟨8 * ((i 0).val / 1024) + 2 * ((i 1).val / 1024) + 1, hlt⟩ (1 : Fin 2) * 1024 ≤ (i 1).val
      ∧ (i 1).val < win0_4.index ⟨8 * ((i 0).val / 1024) + 2 * ((i 1).val / 1024) + 1, hlt⟩ (1 : Fin 2) * 1024 + 1024
    rw [e41]
    show (8 * ((i 0).val / 1024) + 2 * ((i 1).val / 1024) + 1) / 2 % 4 * 1024 ≤ (i 1).val
      ∧ (i 1).val < (8 * ((i 0).val / 1024) + 2 * ((i 1).val / 1024) + 1) / 2 % 4 * 1024 + 1024
    omega

/-- THE RESULT ARRAY after the run is G of the three arguments. -/
theorem final (c : Dev nD) : (dats m 0 c).arrAt 4 cfg0.N
    = G (m ((c : Thread nD τ).loc main_arg0)) (m ((c : Thread nD τ).loc main_arg1)) (m ((c : Thread nD τ).loc main_arg2)) :=
  (dats m 0 c).arrAt_eq_of_cover 4 _ (fun t hf => flushed_eq m c t hf) cover

/-- The blocked program's run: the result array ends at G of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v29)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Blocks

end
-- ==== Proof.RefIsG.lean ====
/-
  The reference computes G.

  Read one operation at a time, the reference's result at (r, c) is the host product of the rounded input with the
  transposed quantized weight, at (r, c), plus the rounded bias broadcast along the rows.  The host product is the sum
  over k of  xq (r, k) * wsT (k, c),  and wsT (k, c) = ws (c, k); the rounded arrays are pointwise, with the scaling
  spelled as a quotient by 2^-16, which is the product with 65536.
-/
import proofs.«121416_j32487132627344_2_alg».proof.Proof.Gen.ReferenceIdeal.Read
import proofs.«121416_j32487132627344_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.ShiftQ

/-- The rounded input, entry by entry. -/
theorem xq_apply (x : (⟨S8192x4096, .f32⟩ : BufTy).Contents (Elt Ideal)) (j : S8192x4096.Idx) :
    val_main_v5 (F := Ideal) x j = fix (x j) := by
  rw [val_main_v5_apply, val_main_call0_v4_apply, val_main_call0_v3_apply, val_main_cst_2_apply,
    val_main_call0_v2_apply, val_main_call0_v1_apply, val_main_call0_v0_apply, val_main_cst_1_apply,
    val_main_v4_apply, val_main_v2_apply, val_main_v1_apply, val_main_v0_apply, val_main_cst_apply,
    val_main_v3_apply, val_main_cst_0_apply]
  exact fix_of_div (x j)

/-- The quantized weight, entry by entry. -/
theorem ws_apply (w : (⟨S4096x4096, .f32⟩ : BufTy).Contents (Elt Ideal)) (j : S4096x4096.Idx) :
    val_main_v16 (F := Ideal) w j = pow2 (w j) := by
  rw [val_main_v16_apply, val_main_v15_apply, val_main_v14_apply, val_main_v13_apply, val_main_cst_4_apply,
    val_main_v12_apply, val_main_v11_apply, val_main_v8_apply, val_main_v7_apply, val_main_v10_apply,
    val_main_v9_apply, val_main_cst_3_apply, val_main_v6_apply]
  rfl

/-- The rounded bias, entry by entry. -/
theorem bq_apply (b : (⟨S4096, .f32⟩ : BufTy).Contents (Elt Ideal)) (j : S4096.Idx) :
    val_main_v22 (F := Ideal) b j = fix (b j) := by
  rw [val_main_v22_apply, val_main_call2_v4_apply, val_main_call2_v3_apply, val_main_cst_8_apply,
    val_main_call2_v2_apply, val_main_call2_v1_apply, val_main_call2_v0_apply, val_main_cst_7_apply,
    val_main_v21_apply, val_main_v19_apply, val_main_v18_apply, val_main_v17_apply, val_main_cst_5_apply,
    val_main_v20_apply, val_main_cst_6_apply]
  exact fix_of_div (b j)

/-- The reference's result is G of its three arguments. -/
theorem result_is_G (x : (⟨S8192x4096, .f32⟩ : BufTy).Contents (Elt Ideal))
    (w : (⟨S4096x4096, .f32⟩ : BufTy).Contents (Elt Ideal)) (b : (⟨S4096, .f32⟩ : BufTy).Contents (Elt Ideal)) :
    val_main_v27 (F := Ideal) x w b = G x w b := by
  funext i
  obtain ⟨r, c, rfl⟩ : ∃ (r : Fin 8192) (c : Fin 4096), i = ix2 r c := ⟨i 0, i 1, eq_ix2 i⟩
  rw [val_main_v27_apply, val_main_v24_apply, val_main_v26_apply, val_main_v25_apply, bq_apply]
  show (∑ k : Fin 4096, _) + _ = (∑ k : Fin 4096, _) + _
  have eb : idx_main_v25 (idx_main_v26 (ix2 r c)) = ix1 c := funext fun a => Fin.ext (by
    match a with
    | ⟨0, _⟩ => rfl)
  rw [eb]
  refine congrArg (· + fix (b (ix1 c))) (Finset.sum_congr rfl fun k _ => ?_)
  have el : lidx_main_v24 (ix2 r c) k = ix2 r k := funext fun a => Fin.ext (by
    match a with
    | ⟨0, _⟩ => rfl
    | ⟨1, _⟩ => rfl)
  have er : idx_main_v23 (ridx_main_v24 (ix2 r c) k) = ix2 c k := funext fun a => Fin.ext (by
    match a with
    | ⟨0, _⟩ => rfl
    | ⟨1, _⟩ => rfl)
  rw [xq_apply, val_main_v23_apply, ws_apply, el, er]

end Cert.ReferenceIdeal.RefValue

end
-- ==== Proof.lean ====
/-
  A linear layer with a fixed-point-rounded input and bias and a power-of-two-quantized weight, computed two ways.

  Write fix a = clamp (floor (a * 2^16) * 2^-16) between -32768 and 32767 for the fixed-point rounding, and
  pow2 w = exp (ln2 * roundeven (log |w| / log 2)) * sign w for the weight quantizer.  Both programs compute, for
  x of shape [8192, 4096], w of shape [4096, 4096] and b of shape [4096],

      out (r, c) = sum over k < 4096 of fix (x (r, k)) * pow2 (w (c, k))  +  fix (b c).

  The plain program does it in one product of the rounded input with the transposed quantized weight; it spells the
  scaling inside fix as a quotient by 2^-16, which on the extended reals is the product with 65536.  The blocked
  program first splits the rounded input into a high part (the value in a narrower float format) and a low part (the
  value minus the high part widened back), and contracts both against the quantized weight over an 8 x 4 x 2 grid of
  1024 x 1024 output tiles and two halves of the contracted axis, accumulating in a tile that is zeroed at the first
  half and receives the bias at the second.  On the extended reals a change of float format is the identity, so the
  high part is the rounded value and the low part is the rounded value minus itself; the clamp makes the rounded value
  a real number whatever x is, so the low part is zero and its products vanish (zero times anything is zero there).
  What is left is the sum over the first half plus the sum over the second, which is the sum over the whole axis by
  associativity and commutativity of +.  No finiteness of the inputs is used.

  The modules: Pow2 (the scalars), Spec (the function G and the law joining four partial sums into one), RefIsG (the
  plain program computes G), Pieces and Payload (what one grid point leaves, and that value at an entry), WindowArrays
  (the arrays the blocked product reads), Entry (one entry of one tile is G there), Blocks (the tiles cover the result).
  The blocked program is its own idealization: no operation was rewritten, so that claim is the true proposition.
-/
import proofs.«121416_j32487132627344_2_alg».proof.Defs
import proofs.«121416_j32487132627344_2_alg».proof.Proof.Gen.Kernel
import proofs.«121416_j32487132627344_2_alg».proof.Proof.Gen.Kernel.Skeleton
import proofs.«121416_j32487132627344_2_alg».proof.Proof.Gen.Kernel.Launch
import proofs.«121416_j32487132627344_2_alg».proof.Proof.Gen.Kernel.Points
import proofs.«121416_j32487132627344_2_alg».proof.Proof.Gen.Kernel.Frame
import proofs.«121416_j32487132627344_2_alg».proof.Proof.Gen.KernelIdeal
import proofs.«121416_j32487132627344_2_alg».proof.Proof.Gen.KernelIdeal.Skeleton
import proofs.«121416_j32487132627344_2_alg».proof.Proof.Gen.KernelIdeal.Launch
import proofs.«121416_j32487132627344_2_alg».proof.Proof.Gen.KernelIdeal.Points
import proofs.«121416_j32487132627344_2_alg».proof.Proof.Gen.KernelIdeal.Frame
import proofs.«121416_j32487132627344_2_alg».proof.Proof.Gen.ReferenceIdeal
import proofs.«121416_j32487132627344_2_alg».proof.Proof.Gen.Pre_finite_inputs
import proofs.«121416_j32487132627344_2_alg».proof.Proof.Gen.KernelIdeal.Value
import proofs.«121416_j32487132627344_2_alg».proof.Proof.Gen.ReferenceIdeal.Run
import proofs.«121416_j32487132627344_2_alg».proof.Proof.Gen.ReferenceIdeal.Read
import proofs.«121416_j32487132627344_2_alg».proof.Proof.Blocks
import proofs.«121416_j32487132627344_2_alg».proof.Proof.RefIsG
import Idealize.ShloMosaic.Adequacy
import Idealize.ShloMosaic.Init

noncomputable section

namespace Cert.Proof

open Idealize.ShloMosaic Idealize.ShloMosaic.TcCoe Idealize.SL.Sem

/-- The blocked program, read bit for bit, runs and leaves its arguments unchanged. -/
theorem frame_blocked : Cert.frame_Kernel := fun m ρ _ => Cert.Kernel.Gen.frame m ρ

/-- The blocked program, read on the extended reals, runs and leaves its arguments unchanged. -/
theorem frame_blocked_ideal : Cert.frame_KernelIdeal := fun m ρ _ => Cert.KernelIdeal.Gen.frame m ρ

/-- The plain program runs and leaves its arguments unchanged: its run with the result dropped. -/
theorem frame_plain : Cert.frame_ReferenceIdeal := fun m ρ _ =>
  (θ_run Cert.ReferenceIdeal.defs _ _).mono (fun _ h c => (h c).2) (Cert.ReferenceIdeal.Value.run (F := Ideal) m ρ)

/-- No operation of the blocked program was rewritten for reading on the extended reals. -/
theorem preserves : Cert.preserves_Kernel_KernelIdeal := trivial

/-- From arguments that agree, both programs end with G of the arguments as their result. -/
theorem algebraic : Cert.algebraic_KernelIdeal_ReferenceIdeal := by
  intro m ρ m' ρ' _ hagree
  refine ⟨fun c => Cert.ShiftQ.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.result_is_G, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_blocked, frame_blocked_ideal, frame_plain, preserves, algebraic⟩

end Cert.Proof

end
